-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S128x8192 : Shape := ⟨2, ![128, 8192]⟩
abbrev S128 : Shape := ⟨1, ![128]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c5_i32 : BitVec 32 := 5#32
  let v7 : BitVec 32 := Scalar.addi c0_i32 c5_i32
  let c1_i32 : BitVec 32 := 1#32
  ⟨c0_i32, v7, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 95
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .i1⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .i1⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .i1⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192x1, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .i1⟩
  | .hbm, ⟨66, _⟩ => ⟨S8192x8192, .f32⟩
  | .hbm, ⟨67, _⟩ => ⟨S_, .f32⟩
  | .hbm, ⟨68, _⟩ => ⟨S8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x1, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S8192, .f32⟩
  | .hbm, ⟨85, _⟩ => ⟨S8192x8192, .f32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192x1, .f32⟩
  | .hbm, ⟨93, _⟩ => ⟨S8192x8192, .f32⟩
  | .hbm, ⟨94, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_cst_6 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_7 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_8 : Ref sig .tc := ⟨.hbm, 35, rfl⟩
abbrev main_v25 : Ref sig .tc := ⟨.hbm, 36, rfl⟩
abbrev main_v26 : Ref sig .tc := ⟨.hbm, 37, rfl⟩
abbrev main_cst_9 : Ref sig .tc := ⟨.hbm, 38, rfl⟩
abbrev main_v27 : Ref sig .tc := ⟨.hbm, 39, rfl⟩
abbrev main_cst_10 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_11 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_12 : Ref sig .tc := ⟨.hbm, 51, rfl⟩
abbrev main_v37 : Ref sig .tc := ⟨.hbm, 52, rfl⟩
abbrev main_v38 : Ref sig .tc := ⟨.hbm, 53, rfl⟩
abbrev main_cst_13 : Ref sig .tc := ⟨.hbm, 54, rfl⟩
abbrev main_v39 : Ref sig .tc := ⟨.hbm, 55, rfl⟩
abbrev main_cst_14 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_15 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_16 : Ref sig .tc := ⟨.hbm, 67, rfl⟩
abbrev main_v49 : Ref sig .tc := ⟨.hbm, 68, rfl⟩
abbrev main_v50 : Ref sig .tc := ⟨.hbm, 69, rfl⟩
abbrev main_cst_17 : Ref sig .tc := ⟨.hbm, 70, rfl⟩
abbrev main_v51 : Ref sig .tc := ⟨.hbm, 71, rfl⟩
abbrev main_cst_18 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_19 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_20 : Ref sig .tc := ⟨.hbm, 83, rfl⟩
abbrev main_v61 : Ref sig .tc := ⟨.hbm, 84, rfl⟩
abbrev main_v62 : Ref sig .tc := ⟨.hbm, 85, rfl⟩
abbrev main_cst_21 : Ref sig .tc := ⟨.hbm, 86, rfl⟩
abbrev main_v63 : Ref sig .tc := ⟨.hbm, 87, rfl⟩
abbrev main_cst_22 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.Threshold.lean ====
/-
  The row-wise threshold iteration as a function of one row of extended reals, and the few laws of the
  extended reals that let two spellings of one round meet.

  For a row `x` and a threshold `t`, the ACTIVE entries are those with `t ≤ x k`. One round replaces `t` by
  `(S - 1) / N`, where `S` is the sum of the active entries and `N` their number (`nextThr`). The first round counts
  every entry (`firstThr`: `(∑ x - 1) / 8192`), five more rounds follow (`thr`), and the result array is each entry
  lowered by its row's last threshold (`shifted`).

  A round can be spelt with a selection (`if t ≤ x k then x k else 0`) or with a 0/1 mask obtained from the sign of
  `x k - t` and multiplied in (`x k * mask`). The two agree when `x k` is a real number: then `0 ≤ x k - t ↔ t ≤ x k`
  whatever extended real `t` is (at `x k = ⊤ = t` the difference would be `⊥` and the equivalence would fail, which is
  why finiteness of the entries is used).
-/
import Idealize.ShloMosaic.PureOps.Ideal
import Idealize.ShloMosaic.PureOps.Ideal.Laws
import Idealize.ShloMosaic.Lib.ValueIdx

noncomputable section

namespace Cert.Simplex

open Idealize.ShloMosaic

variable {n : Nat}

/-- One round: from the threshold `t`, the sum of the entries at or above `t`, less one, over their number. -/
def nextThr (x : Fin n → EReal) (t : EReal) : EReal :=
  Ideal.div ((∑ k, if t ≤ x k then x k else 0) - 1) (∑ k, if t ≤ x k then (1 : EReal) else 0)

/-- The first round, in which every entry of a row of 8192 is active. -/
def firstThr (x : Fin 8192 → EReal) : EReal :=
  Ideal.div ((∑ k, x k) - 1) ((8192 : ℝ) : EReal)

/-- The threshold after the first round and five more. -/
def thr (x : Fin 8192 → EReal) : EReal := (nextThr x)^[5] (firstThr x)

/-- A square array of 8192 rows. -/
abbrev Arr : Type := (⟨2, ![8192, 8192]⟩ : Shape).Idx → EReal

/-- Row `r` of an array. -/
def rowOf (X : Arr) (r : Fin 8192) : Fin 8192 → EReal := fun k => X (ValueIdx.ix2 r k)

/-- The result: every entry lowered by the last threshold of its row. -/
def shifted (X : Arr) : Arr := fun i => X i - thr (rowOf X (i 0))

/-! ## Comparisons read as propositions -/

/-- A selection on `a ≥ b` is the `if` on `b ≤ a`. -/
theorem select_oge {α : Type} (a b : EReal) (u v : α) :
    Scalar.select (Ideal.cmp .oge a b) u v = if b ≤ a then u else v := by
  by_cases h : b ≤ a
  · rw [if_pos h]
    show Scalar.select (BitVec.ofBool (decide (b ≤ a))) u v = u
    rw [decide_eq_true h]; rfl
  · rw [if_neg h]
    show Scalar.select (BitVec.ofBool (decide (b ≤ a))) u v = v
    rw [decide_eq_false h]; rfl

/-- The bit of `a ≥ b` read as a number is `1` when `b ≤ a` and `0` otherwise. -/
theorem uitofp_oge (a b : EReal) :
    (FloatOps.uitofp (F := Ideal) .f32 (Ideal.cmp .oge a b) : EReal) = if b ≤ a then 1 else 0 := by
  by_cases h : b ≤ a
  · rw [if_pos h]
    show (((BitVec.ofBool (decide (b ≤ a))).toNat : ℝ) : EReal) = 1
    rw [decide_eq_true h]; simp
  · rw [if_neg h]
    show (((BitVec.ofBool (decide (b ≤ a))).toNat : ℝ) : EReal) = 0
    rw [decide_eq_false h]; simp

/-! ## The laws -/

/-- For a real `x` and any extended real `t`: the difference `x - t` is nonnegative exactly when `t ≤ x`. -/
theorem coe_sub_nonneg_iff (x : ℝ) (t : EReal) : (0 : EReal) ≤ (x : EReal) - t ↔ t ≤ (x : EReal) := by
  induction t using EReal.rec with
  | bot => simp
  | top => simp
  | coe r =>
    rw [← EReal.coe_sub, ← EReal.coe_zero, EReal.coe_le_coe_iff, EReal.coe_le_coe_iff]
    exact sub_nonneg

/-- Multiplying by a 0/1 indicator selects. -/
theorem mul_indicator (x : EReal) (c : Prop) [Decidable c] :
    x * (if c then (1 : EReal) else 0) = if c then x else 0 := by
  split_ifs <;> simp

/-- A row of 8192 ones sums to 8192. -/
theorem sum_ones : (∑ _k : Fin 8192, (1 : EReal)) = ((8192 : ℝ) : EReal) := by
  simp
  norm_cast

/-- One round spelt with the mask `[0 ≤ x k - t]` multiplied in (and sums started from zero) is `nextThr`, on a
    row of real numbers. -/
theorem masked_round (x : Fin n → EReal) (hx : ∀ k, ∃ r : ℝ, x k = (r : EReal)) (t : EReal) :
    Ideal.div (((0 : EReal) + ∑ k, x k * (if (0 : EReal) ≤ x k - t then (1 : EReal) else 0)) - 1)
        ((0 : EReal) + ∑ k, (if (0 : EReal) ≤ x k - t then (1 : EReal) else 0))
      = nextThr x t := by
  unfold nextThr
  rw [zero_add, zero_add]
  have e1 : ∀ k, x k * (if (0 : EReal) ≤ x k - t then (1 : EReal) else 0) = if t ≤ x k then x k else 0 := fun k => by
    obtain ⟨r, hr⟩ := hx k
    rw [mul_indicator, hr]
    exact if_congr (coe_sub_nonneg_iff r t) rfl rfl
  have e2 : ∀ k, (if (0 : EReal) ≤ x k - t then (1 : EReal) else 0) = if t ≤ x k then (1 : EReal) else 0 := fun k => by
    obtain ⟨r, hr⟩ := hx k
    rw [hr]
    exact if_congr (coe_sub_nonneg_iff r t) rfl rfl
  rw [Finset.sum_congr rfl fun k _ => e1 k, Finset.sum_congr rfl fun k _ => e2 k]

/-- The first round spelt with an all-ones mask is `firstThr`. -/
theorem masked_first (x : Fin 8192 → EReal) :
    Ideal.div (((0 : EReal) + ∑ k, x k * (1 : EReal)) - 1) ((0 : EReal) + ∑ _k : Fin 8192, (1 : EReal)) = firstThr x := by
  unfold firstThr
  rw [zero_add, zero_add, sum_ones]
  simp only [mul_one]

/-! ## A fold that ignores the trip number is an iterate -/

/-- Folding `f` over a list of trips, the trip unused, applies `f` once per trip. -/
theorem foldl_const_eq_iterate {ι σ : Type} (f : σ → σ) :
    ∀ (l : List ι) (init : σ), l.foldl (fun acc _ => f acc) init = f^[l.length] init
  | [], _ => rfl
  | _ :: l, init => by
    rw [List.foldl_cons, foldl_const_eq_iterate f l (f init), List.length_cons, Function.iterate_succ_apply]

end Cert.Simplex

end
-- ==== Proof.Consts.lean ====
/-
  The float constants the two programs spell, as the extended reals their bit patterns denote:
  `1.0` is `1` and `8192.0` is `8192` (the zero pattern is the library's `Ideal.ofBits_zero_f32`).
-/
import Idealize.ShloMosaic.PureOps.Ideal

noncomputable section

namespace Cert.Simplex.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `8192.0` (the row length) denotes the real `8192`. -/
theorem ofBits_8192 : Ideal.ofBits .f32 0x46000000#32 = ((8192 : ℝ) : EReal) := by
  simp [Ideal.ofBits, Ideal.ieee, -EReal.coe_mul]; norm_num

end Cert.Simplex.Consts

end
-- ==== Proof.BlockRows.lean ====
/-
  The kernel body's arithmetic, read one row at a time.

  The body works on a block of 128 rows of 8192 entries. Its three pure pieces are: the first threshold of every row
  (a lane sum, less one, over 8192), one further round (two lane sums over the entries selected by `x ≥ t`, the
  threshold held in a 128×1 column and broadcast along the lanes), and the final subtraction of the column from the block.
  Read at row `p` these are `firstThr`, `nextThr` and a difference, of the row `k ↦ x (p, k)`; five rounds folded over
  the column are the five iterates of `nextThr` in every row.
-/
import proofs.«103577_j10668698763828_2_alg».proof.Proof.Gen.KernelIdeal.Skeleton
import proofs.«103577_j10668698763828_2_alg».proof.Proof.Threshold
import proofs.«103577_j10668698763828_2_alg».proof.Proof.Consts
import Idealize.ShloMosaic.Lib.Pipeline.Value
import Idealize.ShloMosaic.Lib.ValueIdx
import Idealize.ShloMosaic.PureOps.Ideal.Laws

noncomputable section

namespace Cert.Simplex.Body

open Cert.KernelIdeal Cert.KernelIdeal.Gen Idealize.ShloMosaic Idealize.ShloMosaic.ValueIdx Cert.Simplex

/-! ## The layout operations of the body, at an index -/

/-- A vector of 128 row values cast to a 128×1 column holds, in row `p`, the value of row `p`. -/
theorem column_cast (v : FVec Ideal S128 .f32) (h : S128.ShapeCasts S128x1) (p : Fin 128) (z : Fin 1) :
    shapeCast S128x1 v h (ix2 p z) = v (ix1 p) :=
  shapeCast_apply v h _ _ (by
    have hz : z.val = 0 := by omega
    rw [Shape.rowMajor_val_one, Shape.rowMajor_val_two]
    show p.val = p.val * 1 + z.val
    omega)

/-- A 128×1 column broadcast along the lanes holds, at `(p, q)`, the column's entry of row `p`. -/
theorem column_broadcast (t : FVec Ideal S128x1 .f32) (h : S128x1.Broadcasts S128x8192) (p : Fin 128) (q : Fin 8192) :
    broadcastTo S128x8192 t h (ix2 p q) = t (ix2 p (0 : Fin 1)) := by
  refine broadcastTo_apply t h (ix2 p q) (ix2 p (0 : Fin 1)) fun ax => ?_
  match ax with
  | ⟨0, _⟩ => rfl
  | ⟨1, _⟩ => rfl

/-- The lane sum of a block, at row `p`, is the sum of that row. -/
theorem lane_sum (v : FVec Ideal S128x8192 .f32) (h : S128x8192.Reduces [1] S128) (hφ : FKind.Formats .f32)
    (hacc : (0x00000000#32 : BitVec 32) = 0x00000000#32) (p : Fin 128) :
    multiReduction .add [1] S128 v 0x00000000#32 h hφ hacc (ix1 p) = ∑ k : Fin 8192, v (ix2 p k) := by
  refine (Ideal.multiReduction_add_single v 0x00000000#32 h hφ hacc (ix1 p)).trans ?_
  exact Finset.sum_congr rfl fun k _ => congrArg v (funext fun a => by
    match a with
    | ⟨0, _⟩ => rfl
    | ⟨1, _⟩ => rfl)

/-! ## The selected entries and their count, at an index -/

/-- The block with the entries below their row's threshold replaced by zero. -/
theorem kept_apply (x : FVec Ideal S128x8192 .f32) (t : FVec Ideal S128x1 .f32) (h : S128x1.Broadcasts S128x8192)
    (p : Fin 128) (k : Fin 8192) :
    select (cmpf .oge x (broadcastTo S128x8192 t h)) x (broadcast S128x8192 (Scalar.ofBits (F := Ideal) .f32 0x00000000#32)) (ix2 p k)
      = if t (ix2 p (0 : Fin 1)) ≤ x (ix2 p k) then x (ix2 p k) else 0 := by
  rw [select_apply, cmpf_apply, column_broadcast, Ideal.cmpf_def, select_oge, broadcast_apply]
  show (if _ then _ else Ideal.ofBits .f32 0x00000000#32) = _
  rw [Ideal.ofBits_zero_f32]

/-- The indicator of the entries at or above their row's threshold. -/
theorem active_apply (x : FVec Ideal S128x8192 .f32) (t : FVec Ideal S128x1 .f32) (h : S128x1.Broadcasts S128x8192)
    (p : Fin 128) (k : Fin 8192) :
    select (cmpf .oge x (broadcastTo S128x8192 t h)) (broadcast S128x8192 (Scalar.ofBits (F := Ideal) .f32 0x3F800000#32))
        (broadcast S128x8192 (Scalar.ofBits (F := Ideal) .f32 0x00000000#32)) (ix2 p k)
      = if t (ix2 p (0 : Fin 1)) ≤ x (ix2 p k) then (1 : EReal) else 0 := by
  rw [select_apply, cmpf_apply, column_broadcast, Ideal.cmpf_def, select_oge, broadcast_apply, broadcast_apply]
  show (if _ then Ideal.ofBits .f32 0x3F800000#32 else Ideal.ofBits .f32 0x00000000#32) = _
  rw [Ideal.ofBits_zero_f32, Consts.ofBits_one]

/-! ## The three pieces, row by row -/

/-- The first piece: every row's first threshold. -/
theorem first_piece (x : Vec Ideal S128x8192 .f32) (p : Fin 128) (z : Fin 1) :
    k0_pay1 (F := Ideal) x (ix2 p z) = firstThr (fun k => x (ix2 p k)) := by
  unfold k0_pay1 firstThr
  show Ideal.div (shapeCast S128x1 (multiReduction (F := Ideal) .add [1] S128 x 0x00000000#32 _ _ _) _ (ix2 p z)
      - Ideal.ofBits .f32 0x3F800000#32) (Ideal.ofBits .f32 0x46000000#32) = _
  rw [column_cast, lane_sum, Consts.ofBits_one, Consts.ofBits_8192]

/-- The second piece: one round in every row, from the column of thresholds. -/
theorem round_piece (x : Vec Ideal S128x8192 .f32) (t : FVec Ideal S128x1 .f32) (p : Fin 128) (z : Fin 1) :
    k0_pay2 (F := Ideal) x t (ix2 p z) = nextThr (fun k => x (ix2 p k)) (t (ix2 p (0 : Fin 1))) := by
  unfold k0_pay2 nextThr
  show Ideal.div
      (shapeCast S128x1 (multiReduction (F := Ideal) .add [1] S128
          (select (cmpf .oge x (broadcastTo S128x8192 t _)) x (broadcast S128x8192 (Scalar.ofBits (F := Ideal) .f32 0x00000000#32)))
          0x00000000#32 _ _ _) _ (ix2 p z) - Ideal.ofBits .f32 0x3F800000#32)
      (shapeCast S128x1 (multiReduction (F := Ideal) .add [1] S128
          (select (cmpf .oge x (broadcastTo S128x8192 t _)) (broadcast S128x8192 (Scalar.ofBits (F := Ideal) .f32 0x3F800000#32))
            (broadcast S128x8192 (Scalar.ofBits (F := Ideal) .f32 0x00000000#32)))
          0x00000000#32 _ _ _) _ (ix2 p z)) = _
  rw [column_cast, column_cast, lane_sum, lane_sum, Consts.ofBits_one]
  rw [Finset.sum_congr rfl fun k _ => kept_apply x t _ p k, Finset.sum_congr rfl fun k _ => active_apply x t _ p k]

/-- The third piece: the block less the column of thresholds. -/
theorem shift_piece (x : Vec Ideal S128x8192 .f32) (t : FVec Ideal S128x1 .f32) (p : Fin 128) (q : Fin 8192) :
    k0_pay3 (F := Ideal) x t (ix2 p q) = x (ix2 p q) - t (ix2 p (0 : Fin 1)) := by
  unfold k0_pay3
  show x (ix2 p q) - broadcastTo S128x8192 t _ (ix2 p q) = _
  rw [column_broadcast]

/-! ## Five rounds -/

/-- Any number of rounds on the column are that many iterates of `nextThr` in every row. -/
theorem rounds_iterate (x : Vec Ideal S128x8192 .f32) (p : Fin 128) :
    ∀ (n : Nat) (t : FVec Ideal S128x1 .f32),
      (k0_pay2 (F := Ideal) x)^[n] t (ix2 p (0 : Fin 1)) = (nextThr (fun k => x (ix2 p k)))^[n] (t (ix2 p (0 : Fin 1)))
  | 0, _ => rfl
  | n + 1, t => by
    rw [Function.iterate_succ_apply, Function.iterate_succ_apply, rounds_iterate x p n, round_piece]

/-- The loop's five trips from the first piece leave, in every row, that row's last threshold. -/
theorem loop_value (x : Vec Ideal S128x8192 .f32) (p : Fin 128) :
    Scf.fold (n := k0_t1_loop.trips) (fun _ acc => k0_pay2 (F := Ideal) x acc) (k0_pay1 (F := Ideal) x) (ix2 p (0 : Fin 1))
      = thr (fun k => x (ix2 p k)) := by
  rw [Scf.fold_eq, foldl_const_eq_iterate, List.length_finRange]
  show (k0_pay2 (F := Ideal) x)^[5] (k0_pay1 (F := Ideal) x) (ix2 p (0 : Fin 1)) = _
  rw [rounds_iterate, first_piece]
  rfl

end Cert.Simplex.Body

end
-- ==== Proof.KernelArray.lean ====
/-
  From blocks to the array: what the kernel's run leaves in the result array.

  The grid has 64 points; point `t` works on rows `128 t … 128 t + 127` of the argument, all 8192 columns of them, and
  writes the same rows of the result. A row therefore lies whole inside one block, so the row-wise function
  `shifted` of the whole array, read through block `t`, is the body's result on block `t`: the block's entry less its
  row's last threshold. The 64 blocks cover the array (row `r` is in block `r / 128`), hence the result array ends at
  `shifted` of the argument.
-/
import proofs.«103577_j10668698763828_2_alg».proof.Proof.Gen.KernelIdeal.Value
import proofs.«103577_j10668698763828_2_alg».proof.Proof.BlockRows
import Idealize.ShloMosaic.Lib.Pipeline.Value
import Idealize.ShloMosaic.Lib.Tactic

noncomputable section

namespace Cert.Simplex.KernelArray

open Cert.KernelIdeal Cert.KernelIdeal.Gen Idealize.ShloMosaic Idealize.ShloMosaic.TcCoe Idealize.SL.Sem
open Idealize.ShloMosaic.Tactic Idealize.ShloMosaic.ValueIdx Cert.Simplex
open Idealize.ShloMosaic.Pipeline (Dat)

theorem zero_offsets : (![0, 0] : Fin 2 → Nat) = fun _ => 0 := funext fun a => by fin_cases a <;> rfl

/-! ## What the body leaves in the output block -/

section AnyValues

variable {F : FTy → Type} [FloatOps F]

/-- The body stores, over its whole output block, the third piece of the loaded block and of the loop's fold from the
    first piece: the one store covers the block, and both loads read the input block whole. -/
theorem body_leaves (c : Dev nD) (i : grid0.Coords) (arg1 : Memref sig .tc .vmem S128x8192 .f32) (harg1 : arg1.IsWhole)
    (arg2 : Memref sig .tc .vmem S128x8192 .f32) (harg2 : arg2.IsWhole) (x0 : Vec F S128x8192 .f32) :
    out0_A_1 c i arg1 harg1 arg2 harg2 x0
      = k0_pay3 x0 (Scf.fold (n := k0_t1_loop.trips) (fun _ acc => k0_pay2 x0 acc) (k0_pay1 x0)) := by
  unfold out0_A_1
  rw [View.read_writes_eq_canon _ _ _ (cover0_A_1 c i arg1 harg1 arg2 harg2 x0)]
  unfold kernelRun0_A
  dsimp only
  try sl_unfold_words
  rw [View.canon_unit_zero zero_offsets]
  simp only [View.readAt_eq_ld, harg1.read_unread, View.ld_unit_zero (S := S128x8192) zero_offsets]

end AnyValues

/-! ## The block's value, entry by entry -/

/-- On a block `x` the body's result at `y` is `x y` less the last threshold of row `y 0` of the block. -/
theorem block_value (x : Vec Ideal S128x8192 .f32) (y : S128x8192.Idx) :
    k0_pay3 (F := Ideal) x (Scf.fold (n := k0_t1_loop.trips) (fun _ acc => k0_pay2 x acc) (k0_pay1 x)) y
      = x y - thr (fun k => x (ix2 (y 0) k)) := by
  obtain ⟨p, q, rfl⟩ : ∃ (p : Fin 128) (q : Fin 8192), y = ix2 p q := ⟨y 0, y 1, eq_ix2 y⟩
  rw [Body.shift_piece, Body.loop_value]

/-! ## The index maps, decided over the 64 grid points -/

/-- Both windows' block index at point `t` is `(t, 0)`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (m : (ℓ : Loc nD τ sig) → Buf (Elt Ideal) ℓ) (ρ : Dev nD → PrngReg)

/-- The argument array of core `c` as the region finds it, typed as a square array of extended reals. -/
abbrev argArr (c : Dev nD) : Arr := V m c main_arg0

/-- At point `t` the body's result at `y` is `shifted` of the argument at the array index the output block puts `y` at:
    the input and output blocks sit at the same rows, and row `y 0` of the block is a whole row of the array. -/
theorem point_value (c : Dev nD) (t : Fin cfg0.N) (y : S128x8192.Idx) :
    k0_pay3 (F := Ideal) (iblk m c 0 t)
        (Scf.fold (n := k0_t1_loop.trips) (fun _ acc => k0_pay2 (iblk m c 0 t) acc) (k0_pay1 (iblk m c 0 t))) y
      = shifted (argArr m c) (((cfg0.win 1).blk t).view.emb y) := by
  obtain ⟨e0, e1, e2, e3⟩ := index_facts t
  refine (block_value (iblk m c 0 t) y).trans ?_
  have hB : ((cfg0.win 0).blk t).view.emb y = ((cfg0.win 1).blk t).view.emb y := by
    funext a; apply Fin.ext
    match a with
    | ⟨0, _⟩ =>
      show win0_0.index t (0 : Fin 2) * 128 + 1 * (y 0).val = win0_1.index t (0 : Fin 2) * 128 + 1 * (y 0).val
      omega
    | ⟨1, _⟩ =>
      show win0_0.index t (1 : Fin 2) * 8192 + 1 * (y 1).val = win0_1.index t (1 : Fin 2) * 8192 + 1 * (y 1).val
      omega
  have hC : ∀ k : Fin 8192, ((cfg0.win 0).blk t).view.emb (ix2 (y 0) k)
      = ix2 ((((cfg0.win 1).blk t).view.emb y) 0) k := fun k => by
    funext a; apply Fin.ext
    match a with
    | ⟨0, _⟩ =>
      show win0_0.index t (0 : Fin 2) * 128 + 1 * (y 0).val = win0_1.index t (0 : Fin 2) * 128 + 1 * (y 0).val
      omega
    | ⟨1, _⟩ =>
      show win0_0.index t (1 : Fin 2) * 8192 + 1 * k.val = k.val
      omega
  show argArr m c (((cfg0.win 0).blk t).view.emb y)
        - thr (fun k => argArr m c (((cfg0.win 0).blk t).view.emb (ix2 (y 0) k)))
      = argArr m c (((cfg0.win 1).blk t).view.emb y)
        - thr (fun k => argArr m c (ix2 ((((cfg0.win 1).blk t).view.emb y) 0) k))
  rw [hB, show (fun k => argArr m c (((cfg0.win 0).blk t).view.emb (ix2 (y 0) k)))
      = (fun k => argArr m c (ix2 ((((cfg0.win 1).blk t).view.emb y) 0) k))
    from funext fun k => congrArg (argArr m c) (hC k)]

/-- What point `t` writes back is block `t` of `shifted` of the argument. -/
theorem flushed_eq (c : Dev nD) (t : Fin cfg0.N) :
    (dats m 0 c).flushed 1 t = ((cfg0.win 1).blk t).view.read (Elt Ideal) (shifted (argArr m c)) := by
  rw [Cert.KernelIdeal.Value.flushed1_A, body_leaves]
  funext y
  exact point_value m c t y

/-! ## The blocks cover the array -/

/-- An index of the array is in point `t`'s block iff each coordinate is in the block's range on its axis. -/
theorem mem_block (t : Fin cfg0.N) (i : S8192x8192.Idx) :
    i ∈ ((cfg0.win 1).blk t).view.set ↔ ∀ a : Fin 2, win0_1.index t a * S128x8192.size a ≤ (i a).val
      ∧ (i a).val < win0_1.index t a * S128x8192.size a + S128x8192.size a := by
  show i ∈ ((View.whole main_v0).slice (win0_1.rect t)).set ↔ _
  rw [View.set_slice_whole, Rect.mem_set_unit]
  exact Iff.rfl

/-- Row `r` of the array is in the block of point `r / 128`. -/
theorem covered (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  have hN : cfg0.N = 64 := N_0
  have hlt : (i 0).val / 128 < cfg0.N := by rw [hN]; omega
  obtain ⟨-, -, e2, e3⟩ := index_facts ⟨(i 0).val / 128, hlt⟩
  refine ⟨⟨(i 0).val / 128, hlt⟩, flush0_1 _, ?_⟩
  rw [mem_block]
  intro a
  match a with
  | ⟨0, _⟩ =>
    show win0_1.index ⟨(i 0).val / 128, hlt⟩ (0 : Fin 2) * 128 ≤ (i 0).val
      ∧ (i 0).val < win0_1.index ⟨(i 0).val / 128, hlt⟩ (0 : Fin 2) * 128 + 128
    rw [e2]
    show (i 0).val / 128 * 128 ≤ (i 0).val ∧ (i 0).val < (i 0).val / 128 * 128 + 128
    omega
  | ⟨1, _⟩ =>
    show win0_1.index ⟨(i 0).val / 128, hlt⟩ (1 : Fin 2) * 8192 ≤ (i 1).val
      ∧ (i 1).val < win0_1.index ⟨(i 0).val / 128, hlt⟩ (1 : Fin 2) * 8192 + 8192
    rw [e3]
    omega

/-! ## The array after the run, and the run -/

/-- The result array ends at `shifted` of the argument. -/
theorem final (c : Dev nD) : (dats m 0 c).arrAt 1 cfg0.N = shifted (argArr m c) :=
  (dats m 0 c).arrAt_eq_of_cover 1 (shifted (argArr m c)) (fun t _ => flushed_eq m c t) covered

/-- The kernel's run: every execution ends with the result array at `shifted` of the argument, the argument unchanged. -/
theorem run : θ_run defs (onTc (τ := τ) (main (F := Ideal))) ⟨m, fun _ => 0, ρ⟩ fun r => ∀ c : Dev nD,
      r.2.mem ((c : Thread nD τ).loc main_v0) = shifted (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Simplex.KernelArray

end
-- ==== Proof.RefRows.lean ====
/-
  The reference, read back row by row.

  The reference computes six thresholds per row, each from a 0/1 mask: the first mask is all ones, and each later
  one marks the entries with `x - t ≥ 0` for the threshold before it; a round divides the masked sum, less one, by
  the mask's sum. On an array of real numbers every such round is `nextThr` (the first `firstThr`) of the row, so the
  last threshold of row `r` is `thr` of that row and the result is `shifted` of the argument.
-/
import proofs.«103577_j10668698763828_2_alg».proof.Proof.Gen.ReferenceIdeal.Read
import proofs.«103577_j10668698763828_2_alg».proof.Proof.Threshold
import proofs.«103577_j10668698763828_2_alg».proof.Proof.Consts
import Idealize.ShloMosaic.Lib.ValueIdx
import Idealize.ShloMosaic.PureOps.Ideal.Laws

noncomputable section

namespace Cert.Simplex.RefRows

open Cert.ReferenceIdeal Cert.ReferenceIdeal.Gen Cert.ReferenceIdeal.Read Idealize.ShloMosaic Idealize.ShloMosaic.ValueIdx
open Cert.Simplex

/-- The mask entry: the sign test of `x - t` against the zero pattern, read as a number. -/
theorem mask_apply (x t : EReal) :
    FloatOps.uitofp (F := Ideal) .f32 (FloatOps.cmpf .oge (FloatOps.subf x t) (FloatOps.ofBits (F := Ideal) .f32 0x00000000#32))
      = if (0 : EReal) ≤ x - t then (1 : EReal) else 0 := by
  show FloatOps.uitofp (F := Ideal) .f32 (Ideal.cmp .oge (x - t) (Ideal.ofBits .f32 0x00000000#32)) = _
  rw [Ideal.ofBits_zero_f32, uitofp_oge]

/-- A round as the reference's operations spell it — sums started from the zero pattern, the one pattern subtracted —
    over the extended reals. -/
theorem round_spelt (s n : EReal) :
    FloatOps.hostDivf (F := Ideal) (φ := .f32)
        (FloatOps.subf (FloatOps.ofBits (F := Ideal) .f32 0x00000000#32 + s) (FloatOps.ofBits (F := Ideal) .f32 0x3F800000#32))
        (FloatOps.ofBits (F := Ideal) .f32 0x00000000#32 + n)
      = Ideal.div (((0 : EReal) + s) - 1) ((0 : EReal) + n) := by
  show Ideal.div ((Ideal.ofBits .f32 0x00000000#32 + s) - Ideal.ofBits .f32 0x3F800000#32) (Ideal.ofBits .f32 0x00000000#32 + n) = _
  rw [Ideal.ofBits_zero_f32, Consts.ofBits_one]

/-- The first round of the reference, in row `r`: the all-ones mask. -/
theorem round_0 (X : Arr) (r : Fin 8192) :
    val_main_v6 (F := Ideal) X (ix1 r) = firstThr (rowOf X r) := by
  have hsumA : ∀ k : Fin 8192, idx_main_v1 (ix1 r) k = ix2 r k := fun k =>
    funext fun a => by match a with | ⟨0, _⟩ => rfl | ⟨1, _⟩ => rfl
  have hsumB : ∀ k : Fin 8192, idx_main_v3 (ix1 r) k = ix2 r k := fun k =>
    funext fun a => by match a with | ⟨0, _⟩ => rfl | ⟨1, _⟩ => rfl
  have hones : ∀ i, val_main_v0 (F := Ideal) i = (1 : EReal) := fun i => by
    rw [val_main_v0_apply, val_main_cst_apply]
    exact Consts.ofBits_one
  rw [val_main_v6_apply, val_main_v5_apply, val_main_v3_apply, val_main_v1_apply, val_main_v4_apply, val_main_cst_2_apply,
    val_main_cst_1_apply, val_main_cst_0_apply]
  simp only [hsumA, hsumB, val_main_v2_apply, hones]
  exact (round_spelt _ _).trans (masked_first (rowOf X r))

/-- The second round of the reference, in row `r`: one round from the threshold before it. -/
theorem round_1 (X : Arr) (hX : ∀ i, ∃ x : ℝ, X i = (x : EReal)) (r : Fin 8192) :
    val_main_v18 (F := Ideal) X (ix1 r) = nextThr (rowOf X r) (val_main_v6 (F := Ideal) X (ix1 r)) := by
  have hprev : ∀ k : Fin 8192, idx_main_v7 (idx_main_v8 (ix2 r k)) = ix1 r := fun k =>
    funext fun a => by match a with | ⟨0, _⟩ => rfl
  have hsumA : ∀ k : Fin 8192, idx_main_v13 (ix1 r) k = ix2 r k := fun k =>
    funext fun a => by match a with | ⟨0, _⟩ => rfl | ⟨1, _⟩ => rfl
  have hsumB : ∀ k : Fin 8192, idx_main_v15 (ix1 r) k = ix2 r k := fun k =>
    funext fun a => by match a with | ⟨0, _⟩ => rfl | ⟨1, _⟩ => rfl
  have hmask : ∀ k : Fin 8192, val_main_v12 (F := Ideal) X (ix2 r k)
      = if (0 : EReal) ≤ X (ix2 r k) - val_main_v6 (F := Ideal) X (ix1 r) then (1 : EReal) else 0 := fun k => by
    rw [val_main_v12_apply, val_main_v11_apply, val_main_v9_apply, val_main_v8_apply, val_main_v7_apply, val_main_v10_apply, val_main_cst_3_apply, hprev k]
    exact mask_apply _ _
  rw [val_main_v18_apply, val_main_v17_apply, val_main_v15_apply, val_main_v13_apply, val_main_v16_apply, val_main_cst_6_apply, val_main_cst_5_apply, val_main_cst_4_apply]
  simp only [hsumA, hsumB, val_main_v14_apply, hmask]
  exact (round_spelt _ _).trans (masked_round (rowOf X r) (fun k => hX _) _)

/-- The third round of the reference, in row `r`: one round from the threshold before it. -/
theorem round_2 (X : Arr) (hX : ∀ i, ∃ x : ℝ, X i = (x : EReal)) (r : Fin 8192) :
    val_main_v30 (F := Ideal) X (ix1 r) = nextThr (rowOf X r) (val_main_v18 (F := Ideal) X (ix1 r)) := by
  have hprev : ∀ k : Fin 8192, idx_main_v19 (idx_main_v20 (ix2 r k)) = ix1 r := fun k =>
    funext fun a => by match a with | ⟨0, _⟩ => rfl
  have hsumA : ∀ k : Fin 8192, idx_main_v25 (ix1 r) k = ix2 r k := fun k =>
    funext fun a => by match a with | ⟨0, _⟩ => rfl | ⟨1, _⟩ => rfl
  have hsumB : ∀ k : Fin 8192, idx_main_v27 (ix1 r) k = ix2 r k := fun k =>
    funext fun a => by match a with | ⟨0, _⟩ => rfl | ⟨1, _⟩ => rfl
  have hmask : ∀ k : Fin 8192, val_main_v24 (F := Ideal) X (ix2 r k)
      = if (0 : EReal) ≤ X (ix2 r k) - val_main_v18 (F := Ideal) X (ix1 r) then (1 : EReal) else 0 := fun k => by
    rw [val_main_v24_apply, val_main_v23_apply, val_main_v21_apply, val_main_v20_apply, val_main_v19_apply, val_main_v22_apply, val_main_cst_7_apply, hprev k]
    exact mask_apply _ _
  rw [val_main_v30_apply, val_main_v29_apply, val_main_v27_apply, val_main_v25_apply, val_main_v28_apply, val_main_cst_10_apply, val_main_cst_9_apply, val_main_cst_8_apply]
  simp only [hsumA, hsumB, val_main_v26_apply, hmask]
  exact (round_spelt _ _).trans (masked_round (rowOf X r) (fun k => hX _) _)

/-- The fourth round of the reference, in row `r`: one round from the threshold before it. -/
theorem round_3 (X : Arr) (hX : ∀ i, ∃ x : ℝ, X i = (x : EReal)) (r : Fin 8192) :
    val_main_v42 (F := Ideal) X (ix1 r) = nextThr (rowOf X r) (val_main_v30 (F := Ideal) X (ix1 r)) := by
  have hprev : ∀ k : Fin 8192, idx_main_v31 (idx_main_v32 (ix2 r k)) = ix1 r := fun k =>
    funext fun a => by match a with | ⟨0, _⟩ => rfl
  have hsumA : ∀ k : Fin 8192, idx_main_v37 (ix1 r) k = ix2 r k := fun k =>
    funext fun a => by match a with | ⟨0, _⟩ => rfl | ⟨1, _⟩ => rfl
  have hsumB : ∀ k : Fin 8192, idx_main_v39 (ix1 r) k = ix2 r k := fun k =>
    funext fun a => by match a with | ⟨0, _⟩ => rfl | ⟨1, _⟩ => rfl
  have hmask : ∀ k : Fin 8192, val_main_v36 (F := Ideal) X (ix2 r k)
      = if (0 : EReal) ≤ X (ix2 r k) - val_main_v30 (F := Ideal) X (ix1 r) then (1 : EReal) else 0 := fun k => by
    rw [val_main_v36_apply, val_main_v35_apply, val_main_v33_apply, val_main_v32_apply, val_main_v31_apply, val_main_v34_apply, val_main_cst_11_apply, hprev k]
    exact mask_apply _ _
  rw [val_main_v42_apply, val_main_v41_apply, val_main_v39_apply, val_main_v37_apply, val_main_v40_apply, val_main_cst_14_apply, val_main_cst_13_apply, val_main_cst_12_apply]
  simp only [hsumA, hsumB, val_main_v38_apply, hmask]
  exact (round_spelt _ _).trans (masked_round (rowOf X r) (fun k => hX _) _)

/-- The fifth round of the reference, in row `r`: one round from the threshold before it. -/
theorem round_4 (X : Arr) (hX : ∀ i, ∃ x : ℝ, X i = (x : EReal)) (r : Fin 8192) :
    val_main_v54 (F := Ideal) X (ix1 r) = nextThr (rowOf X r) (val_main_v42 (F := Ideal) X (ix1 r)) := by
  have hprev : ∀ k : Fin 8192, idx_main_v43 (idx_main_v44 (ix2 r k)) = ix1 r := fun k =>
    funext fun a => by match a with | ⟨0, _⟩ => rfl
  have hsumA : ∀ k : Fin 8192, idx_main_v49 (ix1 r) k = ix2 r k := fun k =>
    funext fun a => by match a with | ⟨0, _⟩ => rfl | ⟨1, _⟩ => rfl
  have hsumB : ∀ k : Fin 8192, idx_main_v51 (ix1 r) k = ix2 r k := fun k =>
    funext fun a => by match a with | ⟨0, _⟩ => rfl | ⟨1, _⟩ => rfl
  have hmask : ∀ k : Fin 8192, val_main_v48 (F := Ideal) X (ix2 r k)
      = if (0 : EReal) ≤ X (ix2 r k) - val_main_v42 (F := Ideal) X (ix1 r) then (1 : EReal) else 0 := fun k => by
    rw [val_main_v48_apply, val_main_v47_apply, val_main_v45_apply, val_main_v44_apply, val_main_v43_apply, val_main_v46_apply, val_main_cst_15_apply, hprev k]
    exact mask_apply _ _
  rw [val_main_v54_apply, val_main_v53_apply, val_main_v51_apply, val_main_v49_apply, val_main_v52_apply, val_main_cst_18_apply, val_main_cst_17_apply, val_main_cst_16_apply]
  simp only [hsumA, hsumB, val_main_v50_apply, hmask]
  exact (round_spelt _ _).trans (masked_round (rowOf X r) (fun k => hX _) _)

/-- The sixth round of the reference, in row `r`: one round from the threshold before it. -/
theorem round_5 (X : Arr) (hX : ∀ i, ∃ x : ℝ, X i = (x : EReal)) (r : Fin 8192) :
    val_main_v66 (F := Ideal) X (ix1 r) = nextThr (rowOf X r) (val_main_v54 (F := Ideal) X (ix1 r)) := by
  have hprev : ∀ k : Fin 8192, idx_main_v55 (idx_main_v56 (ix2 r k)) = ix1 r := fun k =>
    funext fun a => by match a with | ⟨0, _⟩ => rfl
  have hsumA : ∀ k : Fin 8192, idx_main_v61 (ix1 r) k = ix2 r k := fun k =>
    funext fun a => by match a with | ⟨0, _⟩ => rfl | ⟨1, _⟩ => rfl
  have hsumB : ∀ k : Fin 8192, idx_main_v63 (ix1 r) k = ix2 r k := fun k =>
    funext fun a => by match a with | ⟨0, _⟩ => rfl | ⟨1, _⟩ => rfl
  have hmask : ∀ k : Fin 8192, val_main_v60 (F := Ideal) X (ix2 r k)
      = if (0 : EReal) ≤ X (ix2 r k) - val_main_v54 (F := Ideal) X (ix1 r) then (1 : EReal) else 0 := fun k => by
    rw [val_main_v60_apply, val_main_v59_apply, val_main_v57_apply, val_main_v56_apply, val_main_v55_apply, val_main_v58_apply, val_main_cst_19_apply, hprev k]
    exact mask_apply _ _
  rw [val_main_v66_apply, val_main_v65_apply, val_main_v63_apply, val_main_v61_apply, val_main_v64_apply, val_main_cst_22_apply, val_main_cst_21_apply, val_main_cst_20_apply]
  simp only [hsumA, hsumB, val_main_v62_apply, hmask]
  exact (round_spelt _ _).trans (masked_round (rowOf X r) (fun k => hX _) _)

/-- The reference's result is `shifted` of its argument, on an array of real numbers. -/
theorem result_eq (X : Arr) (hX : ∀ i, ∃ x : ℝ, X i = (x : EReal)) :
    val_main_v69 (F := Ideal) X = shifted X := by
  funext i
  obtain ⟨p, q, rfl⟩ : ∃ (p q : Fin 8192), i = ix2 p q := ⟨i 0, i 1, eq_ix2 i⟩
  have hlast : idx_main_v67 (idx_main_v68 (ix2 p q)) = ix1 p :=
    funext fun a => by match a with | ⟨0, _⟩ => rfl
  rw [val_main_v69_apply, val_main_v68_apply, val_main_v67_apply, hlast, round_5 X hX, round_4 X hX, round_3 X hX,
    round_2 X hX, round_1 X hX, round_0 X]
  rfl

end Cert.Simplex.RefRows

end
-- ==== Proof.FiniteEntries.lean ====
/-
  The precondition read back: every entry of the argument is a real number.

  The precondition says that `|x| < +∞` holds at every index (an `and` over the whole array of the comparisons).
  On the extended reals `|x| = max x (-x)`, and this is below `⊤` exactly when `x` is neither infinity.
-/
import proofs.«103577_j10668698763828_2_alg».proof.Pre_finite_inputs
import proofs.«103577_j10668698763828_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Simplex.FiniteEntries

open Idealize.ShloMosaic Cert.Pre_finite_inputs

instance : Subsingleton S_.Idx := ⟨fun a b => funext fun d => d.elim0⟩

/-- The pattern of `+inf` denotes `⊤`. -/
theorem ofBits_inf : Ideal.ofBits .f32 0x7F800000#32 = ⊤ := by
  simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the argument is a real number. -/
theorem entries_real (X : FVec Ideal S8192x8192 .f32) (h : fn (F := Ideal) X = fun _ => 1#1) (i : S8192x8192.Idx) :
    ∃ r : ℝ, X i = (r : EReal) := by
  have h0 := congrFun h ValueIdx.ix0
  dsimp only [fn] at h0
  have hi := Host.reduce_andi_all _ _ _ _ _ h0 i
  have hi' : Ideal.cmp .olt (max (X i) (-(X i))) (Ideal.ofBits .f32 0x7F800000#32) = 1#1 := hi
  refine real_of_abs_lt_top (X i) ?_
  rw [← ofBits_inf]
  by_contra hn
  have hz : Ideal.cmp .olt (max (X i) (-(X i))) (Ideal.ofBits .f32 0x7F800000#32) = 0#1 := by
    show BitVec.ofBool (decide (max (X i) (-(X i)) < Ideal.ofBits .f32 0x7F800000#32)) = 0#1
    rw [decide_eq_false hn]; rfl
  rw [hz] at hi'
  exact absurd hi' (by decide)

end Cert.Simplex.FiniteEntries

end
-- ==== Proof.lean ====
/-
  The kernel and its reference compute, row by row, the same six-round threshold iteration and subtract the last
  threshold from the row.

  For a row `x` of 8192 entries the first threshold is `t₁ = (∑ x - 1) / 8192`; a round sends `t` to `(S - 1) / N` with `S`
  the sum and `N` the number of the entries `x k ≥ t`; after five more rounds the result row is `x - t₆`.

  * The kernel takes 128 rows at a time (64 grid points), computes `t₁` by a lane sum and a division by `8192.0`, runs
    the five further rounds as a loop that carries the column of thresholds, selecting with `x ≥ t`, and stores
    `x - t₆`. Every row lies whole in one block, so the blocks written are the blocks of one row-wise function of the
    argument, and they cover the result array.
  * The reference multiplies by a 0/1 mask instead of selecting: the first mask is all ones (its sum is `8192`), each
    later one is the sign test of `x - t`. For a real `x k` one has `0 ≤ x k - t ↔ t ≤ x k` for every extended real `t`,
    and `x k · 1 = x k`, `x k · 0 = 0`, so each masked round is the selecting round. This is the one place the
    precondition is used: every entry of the argument is finite.

  Both results are therefore `shifted` of the argument (Proof/Threshold.lean), index by index, as extended reals. The
  idealization rewrote nothing, so there is nothing to preserve; the three frames are the generated ones, the
  reference's being its run with the result dropped.
-/
import proofs.«103577_j10668698763828_2_alg».proof.Defs
import proofs.«103577_j10668698763828_2_alg».proof.Proof.Gen.Kernel
import proofs.«103577_j10668698763828_2_alg».proof.Proof.Gen.Kernel.Frame
import proofs.«103577_j10668698763828_2_alg».proof.Proof.Gen.KernelIdeal
import proofs.«103577_j10668698763828_2_alg».proof.Proof.Gen.KernelIdeal.Frame
import proofs.«103577_j10668698763828_2_alg».proof.Proof.Gen.KernelIdeal.Value
import proofs.«103577_j10668698763828_2_alg».proof.Proof.Gen.ReferenceIdeal
import proofs.«103577_j10668698763828_2_alg».proof.Proof.Gen.ReferenceIdeal.Run
import proofs.«103577_j10668698763828_2_alg».proof.Proof.Gen.ReferenceIdeal.Read
import proofs.«103577_j10668698763828_2_alg».proof.Proof.Gen.Pre_finite_inputs
import proofs.«103577_j10668698763828_2_alg».proof.Proof.KernelArray
import proofs.«103577_j10668698763828_2_alg».proof.Proof.RefRows
import proofs.«103577_j10668698763828_2_alg».proof.Proof.FiniteEntries
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its argument as it was: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on a finite argument, both programs end with the result array at `shifted` of the
    argument: the kernel by its blocks, the reference by its six masked rounds. -/
theorem algebraic : Cert.algebraic_KernelIdeal_ReferenceIdeal := by
  intro m ρ m' ρ' hpre hagree
  refine ⟨fun c => Cert.Simplex.shifted (m ((c.tc : Thread Cert.KernelIdeal.nD Cert.KernelIdeal.τ).loc Cert.KernelIdeal.main_arg0)),
    Cert.Simplex.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, hagree c]
  exact Cert.Simplex.RefRows.result_eq _ (Cert.Simplex.FiniteEntries.entries_real _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
